-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S14336x4096 : Shape := ⟨2, ![14336, 4096]⟩
abbrev S14336x32 : Shape := ⟨2, ![14336, 32]⟩
abbrev S4096x14336 : Shape := ⟨2, ![4096, 14336]⟩
abbrev S4096x112 : Shape := ⟨2, ![4096, 112]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S14336x32 : S_.BroadcastsInDim S14336x32 (![] : Fin 0 → Fin S14336x32.rank)
  reducesTo_S14336x32_S_d0_1 : S14336x32.ReducesTo [0, 1] S_
  bcast_S_S4096x112 : S_.BroadcastsInDim S4096x112 (![] : Fin 0 → Fin S4096x112.rank)
  reducesTo_S4096x112_S_d0_1 : S4096x112.ReducesTo [0, 1] S_

variable [Facts]

def fn {F : FTy → Type} [FloatOps F] (main_arg0 : FVec F S2x2048x4096 .f32) (main_arg1 : IVec S14336x4096 32) (main_arg2 : FVec F S14336x32 .f32) (main_arg3 : IVec S14336x32 32) (main_arg4 : IVec S4096x14336 32) (main_arg5 : FVec F S4096x112 .f32) (main_arg6 : IVec S4096x112 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S14336x32 .f32 := Host.absf main_arg2
  let main_cst_0 : FVec F S_ .f32 := constant S_ .f32 0x7F800000#32
  let main_v5 : FVec F S14336x32 .f32 := broadcastInDim S14336x32 ![] bcast_S_S14336x32 main_cst_0
  let main_v6 : IVec S14336x32 1 := cmpf .olt main_v4 main_v5
  let main_c_1 : IVec S_ 1 := constantI S_ 1 1#1
  let main_v7 : IVec S_ 1 := (fun x v => Host.reduce IntOp.andi x v reducesTo_S14336x32_S_d0_1 h_S_) main_v6 main_c_1
  let main_v8 : IVec S_ 1 := andi main_v3 main_v7
  let main_v9 : FVec F S4096x112 .f32 := Host.absf main_arg5
  let main_cst_2 : FVec F S_ .f32 := constant S_ .f32 0x7F800000#32
  let main_v10 : FVec F S4096x112 .f32 := broadcastInDim S4096x112 ![] bcast_S_S4096x112 main_cst_2
  let main_v11 : IVec S4096x112 1 := cmpf .olt main_v9 main_v10
  let main_c_3 : IVec S_ 1 := constantI S_ 1 1#1
  let main_v12 : IVec S_ 1 := (fun x v => Host.reduce IntOp.andi x v reducesTo_S4096x112_S_d0_1 h_S_) main_v11 main_c_3
  let main_v13 : IVec S_ 1 := andi main_v8 main_v12
  main_v13
-- ==== Kernel.lean ====
abbrev S2x2048x4096 : Shape := ⟨3, ![2, 2048, 4096]⟩
abbrev S14336x4096 : Shape := ⟨2, ![14336, 4096]⟩
abbrev S14336x32 : Shape := ⟨2, ![14336, 32]⟩
abbrev S4096x14336 : Shape := ⟨2, ![4096, 14336]⟩
abbrev S4096x112 : Shape := ⟨2, ![4096, 112]⟩
abbrev S4096x4096 : Shape := ⟨2, ![4096, 4096]⟩
abbrev S64x4096 : Shape := ⟨2, ![64, 4096]⟩
abbrev S896x4096 : Shape := ⟨2, ![896, 4096]⟩
abbrev S896x32 : Shape := ⟨2, ![896, 32]⟩
abbrev S64x896 : Shape := ⟨2, ![64, 896]⟩
abbrev S896x32x128 : Shape := ⟨3, ![896, 32, 128]⟩
abbrev S896x32x1 : Shape := ⟨3, ![896, 32, 1]⟩
abbrev S64x14336 : Shape := ⟨2, ![64, 14336]⟩
abbrev S256x14336 : Shape := ⟨2, ![256, 14336]⟩
abbrev S256x112 : Shape := ⟨2, ![256, 112]⟩
abbrev S64x256 : Shape := ⟨2, ![64, 256]⟩
abbrev S256x112x128 : Shape := ⟨3, ![256, 112, 128]⟩
abbrev S256x112x1 : Shape := ⟨3, ![256, 112, 1]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .i32⟩
  | .hbm, ⟨2, _⟩ => ⟨S14336x32, .f32⟩
  | .hbm, ⟨3, _⟩ => ⟨S14336x32, .i32⟩
  | .hbm, ⟨4, _⟩ => ⟨S4096x14336, .i32⟩
  | .hbm, ⟨5, _⟩ => ⟨S4096x112, .f32⟩
  | .hbm, ⟨6, _⟩ => ⟨S4096x112, .i32⟩
  | .hbm, ⟨7, _⟩ => ⟨S4096x4096, .f32⟩
  | .hbm, ⟨8, _⟩ => ⟨S4096x14336, .bf16⟩
  | .hbm, ⟨9, _⟩ => ⟨S4096x4096, .f32⟩
  | .hbm, ⟨10, _⟩ => ⟨S2x2048x4096, .f32⟩
  | .local _ .vmem, ⟨0, _⟩ => ⟨S64x4096, .f32⟩
  | .local _ .vmem, ⟨1, _⟩ => ⟨S64x4096, .f32⟩
  | .local _ .vmem, ⟨2, _⟩ => ⟨S896x4096, .i32⟩
  | .local _ .vmem, ⟨3, _⟩ => ⟨S896x32, .f32⟩
  | .local _ .vmem, ⟨4, _⟩ => ⟨S896x32, .i32⟩
  | .local _ .vmem, ⟨5, _⟩ => ⟨S64x896, .bf16⟩
  | .local _ .vmem, ⟨6, _⟩ => ⟨S64x896, .bf16⟩
  | .local _ .vmem, ⟨7, _⟩ => ⟨S64x14336, .bf16⟩
  | .local _ .vmem, ⟨8, _⟩ => ⟨S64x14336, .bf16⟩
  | .local _ .vmem, ⟨9, _⟩ => ⟨S256x14336, .i32⟩
  | .local _ .vmem, ⟨10, _⟩ => ⟨S256x112, .f32⟩
  | .local _ .vmem, ⟨11, _⟩ => ⟨S256x112, .i32⟩
  | .local _ .vmem, ⟨12, _⟩ => ⟨S64x256, .f32⟩
  | .local _ .vmem, ⟨13, _⟩ => ⟨S64x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![16, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S896x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S896x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S896x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S64x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S64x14336 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S256x14336 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S256x112 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S256x112 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S64x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x2048x4096_S4096x4096 : S2x2048x4096.ShapeCasts S4096x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  inb_S896x4096_S896x4096_0_0 : ∀ a, (![0, 0] : Fin 2 → Nat) a + S896x4096.size a ≤ S896x4096.size a
  h_S896x4096 : 0 < S896x4096.numel
  inb_S896x32_S896x32_0_0 : ∀ a, (![0, 0] : Fin 2 → Nat) a + S896x32.size a ≤ S896x32.size a
  h_S896x32 : 0 < S896x32.numel
  shapeCasts_S896x4096_S896x32x128 : S896x4096.ShapeCasts S896x32x128
  shapeCasts_S896x32_S896x32x1 : S896x32.ShapeCasts S896x32x1
  broadcasts_S896x32x1_S896x32x128 : S896x32x1.Broadcasts S896x32x128
  shapeCasts_S896x32x128_S896x4096 : S896x32x128.ShapeCasts S896x4096
  inb_S64x896_S64x896_0_0 : ∀ a, (![0, 0] : Fin 2 → Nat) a + S64x896.size a ≤ S64x896.size a
  h_S64x896 : 0 < S64x896.numel
  packedbf16_S64x896_S64x896_0_0 : (Rect.unit (s := S64x896) ![0, 0] S64x896.size inb_S64x896_S64x896_0_0).PackedRows (EltTy.packing .bf16)
  inb_S64x14336_S64x14336_0_0 : ∀ a, (![0, 0] : Fin 2 → Nat) a + S64x14336.size a ≤ S64x14336.size a
  h_S64x14336 : 0 < S64x14336.numel
  shapeCasts_S64x14336_S64x14336 : S64x14336.ShapeCasts S64x14336
  inb_S256x14336_S256x14336_0_0 : ∀ a, (![0, 0] : Fin 2 → Nat) a + S256x14336.size a ≤ S256x14336.size a
  h_S256x14336 : 0 < S256x14336.numel
  inb_S256x112_S256x112_0_0 : ∀ a, (![0, 0] : Fin 2 → Nat) a + S256x112.size a ≤ S256x112.size a
  h_S256x112 : 0 < S256x112.numel
  shapeCasts_S256x14336_S256x112x128 : S256x14336.ShapeCasts S256x112x128
  shapeCasts_S256x112_S256x112x1 : S256x112.ShapeCasts S256x112x1
  broadcasts_S256x112x1_S256x112x128 : S256x112x1.Broadcasts S256x112x128
  shapeCasts_S256x112x128_S256x14336 : S256x112x128.ShapeCasts S256x14336
  inb_S64x256_S64x256_0_0 : ∀ a, (![0, 0] : Fin 2 → Nat) a + S64x256.size a ≤ S64x256.size a
  h_S64x256 : 0 < S64x256.numel
  shapeCasts_S4096x4096_S2x2048x4096 : S4096x4096.ShapeCasts S2x2048x4096
  dot_S64x4096_S896x4096_S64x896_1_1_0_0_n_n_wf : DotDims.WF S64x4096 S896x4096 S64x896 [1] [1] [0] [0] [] []
  dot_S64x14336_S256x14336_S64x256_1_1_0_0_n_n_wf : DotDims.WF S64x14336 S256x14336 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S4096x4096.size a
  hwx0_0 : ∀ i : grid0.Coords, EltTy.bits .f32 = 32 ∨ (Rect.block (s := S4096x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S896x4096.size a ≤ S14336x4096.size a
  hwx0_1 : ∀ i : grid0.Coords, EltTy.bits .i32 = 32 ∨ (Rect.block (s := S14336x4096) S896x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S896x32.size a ≤ S14336x32.size a
  hwx0_2 : ∀ i : grid0.Coords, EltTy.bits .f32 = 32 ∨ (Rect.block (s := S14336x32) S896x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x32.size a ≤ S14336x32.size a
  hwx0_3 : ∀ i : grid0.Coords, EltTy.bits .i32 = 32 ∨ (Rect.block (s := S14336x32) S896x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x896.size a ≤ S4096x14336.size a
  hwx0_4 : ∀ i : grid0.Coords, EltTy.bits .bf16 = 32 ∨ (Rect.block (s := S4096x14336) S64x896.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x14336.size a ≤ S4096x14336.size a
  hwx1_0 : ∀ i : grid1.Coords, EltTy.bits .bf16 = 32 ∨ (Rect.block (s := S4096x14336) S64x14336.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x14336.size a ≤ S4096x14336.size a
  hwx1_1 : ∀ i : grid1.Coords, EltTy.bits .i32 = 32 ∨ (Rect.block (s := S4096x14336) S256x14336.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x112.size a ≤ S4096x112.size a
  hwx1_2 : ∀ i : grid1.Coords, EltTy.bits .f32 = 32 ∨ (Rect.block (s := S4096x112) S256x112.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x112.size a ≤ S4096x112.size a
  hwx1_3 : ∀ i : grid1.Coords, EltTy.bits .i32 = 32 ∨ (Rect.block (s := S4096x112) S256x112.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S4096x4096.size a
  hwx1_4 : ∀ i : grid1.Coords, EltTy.bits .f32 = 32 ∨ (Rect.block (s := S4096x4096) S64x256.size (cc1_transform_4 i) (hinb1_4 i)).WholeWords (EltTy.packing .f32)

variable [Facts₀]

def dot_S64x4096_S896x4096_S64x896_1_1_0_0_n_n : DotDims S64x4096 S896x4096 S64x896 where
  lhsContracting := [1]
  rhsContracting := [1]
  lhsNonContracting := [0]
  rhsNonContracting := [0]
  lhsBatch := []
  rhsBatch := []
  wf := dot_S64x4096_S896x4096_S64x896_1_1_0_0_n_n_wf
def dot_S64x14336_S256x14336_S64x256_1_1_0_0_n_n : DotDims S64x14336 S256x14336 S64x256 where
  lhsContracting := [1]
  rhsContracting := [1]
  lhsNonContracting := [0]
  rhsNonContracting := [0]
  lhsBatch := []
  rhsBatch := []
  wf := dot_S64x14336_S256x14336_S64x256_1_1_0_0_n_n_wf

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S896x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S896x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S896x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x896.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S64x14336.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x14336.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x112.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x112.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S64x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S14336x4096 : Shape := ⟨2, ![14336, 4096]⟩
abbrev S14336x32 : Shape := ⟨2, ![14336, 32]⟩
abbrev S4096x14336 : Shape := ⟨2, ![4096, 14336]⟩
abbrev S4096x112 : Shape := ⟨2, ![4096, 112]⟩
abbrev S14336x32x128 : Shape := ⟨3, ![14336, 32, 128]⟩
abbrev S14336x32x1 : Shape := ⟨3, ![14336, 32, 1]⟩
abbrev S2x2048x14336 : Shape := ⟨3, ![2, 2048, 14336]⟩
abbrev S_ : Shape := ⟨0, ![]⟩
abbrev S4096x112x128 : Shape := ⟨3, ![4096, 112, 128]⟩
abbrev S4096x112x1 : Shape := ⟨3, ![4096, 112, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .i32⟩
  | .hbm, ⟨2, _⟩ => ⟨S14336x32, .f32⟩
  | .hbm, ⟨3, _⟩ => ⟨S14336x32, .i32⟩
  | .hbm, ⟨4, _⟩ => ⟨S4096x14336, .i32⟩
  | .hbm, ⟨5, _⟩ => ⟨S4096x112, .f32⟩
  | .hbm, ⟨6, _⟩ => ⟨S4096x112, .i32⟩
  | .hbm, ⟨7, _⟩ => ⟨S14336x32x128, .i32⟩
  | .hbm, ⟨8, _⟩ => ⟨S14336x32x1, .i32⟩
  | .hbm, ⟨9, _⟩ => ⟨S14336x32x128, .i32⟩
  | .hbm, ⟨10, _⟩ => ⟨S14336x32x128, .i32⟩
  | .hbm, ⟨11, _⟩ => ⟨S14336x32x128, .f32⟩
  | .hbm, ⟨12, _⟩ => ⟨S14336x32x1, .f32⟩
  | .hbm, ⟨13, _⟩ => ⟨S14336x32x128, .f32⟩
  | .hbm, ⟨14, _⟩ => ⟨S14336x32x128, .f32⟩
  | .hbm, ⟨15, _⟩ => ⟨S14336x4096, .f32⟩
  | .hbm, ⟨16, _⟩ => ⟨S2x2048x14336, .f32⟩
  | .hbm, ⟨17, _⟩ => ⟨S_, .f32⟩
  | .hbm, ⟨18, _⟩ => ⟨S2x2048x14336, .f32⟩
  | .hbm, ⟨19, _⟩ => ⟨S2x2048x14336, .f32⟩
  | .hbm, ⟨20, _⟩ => ⟨S2x2048x14336, .f32⟩
  | .hbm, ⟨21, _⟩ => ⟨S4096x112x128, .i32⟩
  | .hbm, ⟨22, _⟩ => ⟨S4096x112x1, .i32⟩
  | .hbm, ⟨23, _⟩ => ⟨S4096x112x128, .i32⟩
  | .hbm, ⟨24, _⟩ => ⟨S4096x112x128, .i32⟩
  | .hbm, ⟨25, _⟩ => ⟨S4096x112x128, .f32⟩
  | .hbm, ⟨26, _⟩ => ⟨S4096x112x1, .f32⟩
  | .hbm, ⟨27, _⟩ => ⟨S4096x112x128, .f32⟩
  | .hbm, ⟨28, _⟩ => ⟨S4096x112x128, .f32⟩
  | .hbm, ⟨29, _⟩ => ⟨S4096x14336, .f32⟩
  | .hbm, ⟨30, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  shapeCasts_S14336x4096_S14336x32x128 : S14336x4096.ShapeCasts S14336x32x128
  bcast_S14336x32_S14336x32x1_0_1 : S14336x32.BroadcastsInDim S14336x32x1 (![0, 1] : Fin 2 → Fin S14336x32x1.rank)
  bcast_S14336x32x1_S14336x32x128_0_1_2 : S14336x32x1.BroadcastsInDim S14336x32x128 (![0, 1, 2] : Fin 3 → Fin S14336x32x128.rank)
  shapeCasts_S14336x32x128_S14336x4096 : S14336x32x128.ShapeCasts S14336x4096
  bcast_S_S2x2048x14336 : S_.BroadcastsInDim S2x2048x14336 (![] : Fin 0 → Fin S2x2048x14336.rank)
  shapeCasts_S4096x14336_S4096x112x128 : S4096x14336.ShapeCasts S4096x112x128
  bcast_S4096x112_S4096x112x1_0_1 : S4096x112.BroadcastsInDim S4096x112x1 (![0, 1] : Fin 2 → Fin S4096x112x1.rank)
  bcast_S4096x112x1_S4096x112x128_0_1_2 : S4096x112x1.BroadcastsInDim S4096x112x128 (![0, 1, 2] : Fin 3 → Fin S4096x112x128.rank)
  shapeCasts_S4096x112x128_S4096x14336 : S4096x112x128.ShapeCasts S4096x14336
  dot_S2x2048x4096_S14336x4096_S2x2048x14336_2_1_01_0_n_n_wf : DotDims.WF S2x2048x4096 S14336x4096 S2x2048x14336 [2] [1] [0, 1] [0] [] []
  dot_S2x2048x14336_S4096x14336_S2x2048x4096_2_1_01_0_n_n_wf : DotDims.WF S2x2048x14336 S4096x14336 S2x2048x4096 [2] [1] [0, 1] [0] [] []

variable [Facts₀]

def dot_S2x2048x4096_S14336x4096_S2x2048x14336_2_1_01_0_n_n : DotDims S2x2048x4096 S14336x4096 S2x2048x14336 where
  lhsContracting := [2]
  rhsContracting := [1]
  lhsNonContracting := [0, 1]
  rhsNonContracting := [0]
  lhsBatch := []
  rhsBatch := []
  wf := dot_S2x2048x4096_S14336x4096_S2x2048x14336_2_1_01_0_n_n_wf
def dot_S2x2048x14336_S4096x14336_S2x2048x4096_2_1_01_0_n_n : DotDims S2x2048x14336 S4096x14336 S2x2048x4096 where
  lhsContracting := [2]
  rhsContracting := [1]
  lhsNonContracting := [0, 1]
  rhsNonContracting := [0]
  lhsBatch := []
  rhsBatch := []
  wf := dot_S2x2048x14336_S4096x14336_S2x2048x4096_2_1_01_0_n_n_wf

class Facts : Prop extends Facts₀ where

variable [Facts]
-- ==== Proof.KernelRun.lean ====
/-
  The kernel program's run with EVERY buffer named at the end.

  The program is four segments: a reshape of the activations, the up-projection region, the down-projection
  region, a reshape of the result. Every weakly fair execution terminates without a fault, and each buffer the
  TensorCore holds outside a kernel's scope ends at the contents the fold of the four segments gives it: the
  first reshape applied to the launch memory, each region's arrays at what its write-backs leave, the last
  reshape applied to that. The frame theorem reads only the arguments off this final state; here the whole
  final state is kept, so that the result buffer can be read too. At any float instance.
-/
import proofs.«150182_j83416854823033_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the contents the segments' fold names (`Gen.W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result buffer and at the arguments: the result at the fold's contents, each
    argument as launched. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_all m ρ)

end Cert.KernelIdeal.Whole

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibGroupCasts.lean ====
/-
  A matrix whose rows are cut into groups: the casts between [a, n] and [a, b, c] with n = b * c.

  Both arrays hold the same entries in the same row-major order, so entry (i, g, l) of the grouped array is
  entry (i, g * c + l) of the matrix: group g of row i starts at column g * c. General in the extents and in
  the element type.
-/
import Idealize.ShloMosaic.Lib.Pipeline.Value
import Idealize.ShloMosaic.Lib.ValueIdx

namespace Cert.GroupCasts

open Idealize.ShloMosaic Idealize.ShloMosaic.ValueIdx

variable {α : Type}

/-- [a, n] cast to [a, b, c], n = b * c: entry (i, g, l) is the matrix's entry (i, k) with k = g * c + l. -/
theorem shapeCast_rows_grouped_apply {a n b c : ℕ} (hn : n = b * c) (x : (⟨2, ![a, n]⟩ : Shape).Idx → α)
    (h : (⟨2, ![a, n]⟩ : Shape).ShapeCasts ⟨3, ![a, b, c]⟩) (i : Fin a) (g : Fin b) (l : Fin c) (k : Fin n)
    (hk : k.val = g.val * c + l.val) : shapeCast ⟨3, ![a, b, c]⟩ x h (ix3 i g l) = x (ix2 i k) :=
  shapeCast_apply x h _ _ (by
    rw [Shape.rowMajor_val_three, Shape.rowMajor_val_two]
    show i.val * n + k.val = (i.val * b + g.val) * c + l.val
    rw [hk, hn, Nat.add_mul, Nat.mul_assoc, Nat.add_assoc])

/-- [a, b, c] cast to [a, n], n = b * c: entry (i, k) with k = g * c + l is the grouped array's entry (i, g, l). -/
theorem shapeCast_grouped_rows_apply {a n b c : ℕ} (hn : n = b * c) (x : (⟨3, ![a, b, c]⟩ : Shape).Idx → α)
    (h : (⟨3, ![a, b, c]⟩ : Shape).ShapeCasts ⟨2, ![a, n]⟩) (i : Fin a) (g : Fin b) (l : Fin c) (k : Fin n)
    (hk : k.val = g.val * c + l.val) : shapeCast ⟨2, ![a, n]⟩ x h (ix2 i k) = x (ix3 i g l) :=
  shapeCast_apply x h _ _ (by
    rw [Shape.rowMajor_val_three, Shape.rowMajor_val_two]
    show (i.val * b + g.val) * c + l.val = i.val * n + k.val
    rw [hk, hn, Nat.add_mul, Nat.mul_assoc, Nat.add_assoc])

end Cert.GroupCasts
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.Spec.lean ====
/-
  The two projections of a 4-bit-quantized MLP, entry by entry, on the extended reals.

  A weight matrix [O, K] is stored as integers q with one scale s and one zero point z per GROUP of 128
  consecutive columns of a row: the dequantized entry (o, k) is the integer q (o, k) - z (o, k / 128), read
  as a real number, times s (o, k / 128).

  The up projection of an activation matrix x [M, K] by such a weight [N, K] is, at (m, n), the square of
  the positive part of the dot product of row m of x with row n of the dequantized weight; the down
  projection is the plain dot product of the two rows. Each entry depends on ONE row of the activations and
  ONE row of the weight (and of its scales and zero points), which is what lets a tiling over rows of both
  compute the whole result block by block. The whole MLP applies the down projection to the up projection of
  every row. General in every extent.
-/
import Idealize.ShloMosaic.PureOps.Ideal
import Idealize.ShloMosaic.Lib.ValueIdx

noncomputable section

namespace Cert.QuantMlp

open Idealize.ShloMosaic Idealize.ShloMosaic.ValueIdx

/-- The group of 128 columns that column k belongs to. -/
def grp {K Gr : ℕ} (hK : K = Gr * 128) (k : Fin K) : Fin Gr := ⟨k.val / 128, by have := k.isLt; omega⟩

/-- The dequantized weight at (o, k): (q (o, k) - z (o, k / 128)) as a real, times s (o, k / 128). -/
def deq {O K Gr : ℕ} (hK : K = Gr * 128) (q : IVec ⟨2, ![O, K]⟩ 32) (s : (⟨2, ![O, Gr]⟩ : Shape).Idx → EReal)
    (z : IVec ⟨2, ![O, Gr]⟩ 32) (o : Fin O) (k : Fin K) : EReal :=
  FloatOps.sitofp (F := Ideal) .f32 (IntOp.subi (q (ix2 o k)) (z (ix2 o (grp hK k)))) * s (ix2 o (grp hK k))

/-- The square of the positive part. -/
def reluSq (h : EReal) : EReal := max h (Ideal.ofBits .f32 0x00000000#32) * max h (Ideal.ofBits .f32 0x00000000#32)

/-- The up projection at (m, n): relu² of row m of x against row n of the dequantized weight. -/
def upProj {M N K Gr : ℕ} (hK : K = Gr * 128) (x : (⟨2, ![M, K]⟩ : Shape).Idx → EReal) (q : IVec ⟨2, ![N, K]⟩ 32)
    (s : (⟨2, ![N, Gr]⟩ : Shape).Idx → EReal) (z : IVec ⟨2, ![N, Gr]⟩ 32) (m : Fin M) (n : Fin N) : EReal :=
  reluSq (∑ k : Fin K, x (ix2 m k) * deq hK q s z n k)

/-- The down projection at (m, n): row m of a against row n of the dequantized weight. -/
def downProj {M N K Gr : ℕ} (hK : K = Gr * 128) (a : (⟨2, ![M, K]⟩ : Shape).Idx → EReal) (q : IVec ⟨2, ![N, K]⟩ 32)
    (s : (⟨2, ![N, Gr]⟩ : Shape).Idx → EReal) (z : IVec ⟨2, ![N, Gr]⟩ 32) (m : Fin M) (n : Fin N) : EReal :=
  ∑ k : Fin K, a (ix2 m k) * deq hK q s z n k

/-- An up-projection entry only reads row m of the activations and row n of the weight, its scales and its zero
    points: two settings that agree on those rows (at offsets m₀, n₀ into larger arrays) give the same entry. -/
theorem upProj_rows {M N K Gr M' N' : ℕ} (hK : K = Gr * 128)
    (x : (⟨2, ![M, K]⟩ : Shape).Idx → EReal) (q : IVec ⟨2, ![N, K]⟩ 32) (s : (⟨2, ![N, Gr]⟩ : Shape).Idx → EReal) (z : IVec ⟨2, ![N, Gr]⟩ 32)
    (X : (⟨2, ![M', K]⟩ : Shape).Idx → EReal) (Q : IVec ⟨2, ![N', K]⟩ 32) (S : (⟨2, ![N', Gr]⟩ : Shape).Idx → EReal) (Z : IVec ⟨2, ![N', Gr]⟩ 32)
    (m : Fin M) (n : Fin N) (m' : Fin M') (n' : Fin N')
    (hx : ∀ k, x (ix2 m k) = X (ix2 m' k)) (hq : ∀ k, q (ix2 n k) = Q (ix2 n' k))
    (hs : ∀ g, s (ix2 n g) = S (ix2 n' g)) (hz : ∀ g, z (ix2 n g) = Z (ix2 n' g)) :
    upProj hK x q s z m n = upProj hK X Q S Z m' n' := by
  unfold upProj deq
  refine congrArg reluSq (Finset.sum_congr rfl fun k _ => ?_)
  rw [hx k, hq k, hs (grp hK k), hz (grp hK k)]

/-- The same for a down-projection entry. -/
theorem downProj_rows {M N K Gr M' N' : ℕ} (hK : K = Gr * 128)
    (a : (⟨2, ![M, K]⟩ : Shape).Idx → EReal) (q : IVec ⟨2, ![N, K]⟩ 32) (s : (⟨2, ![N, Gr]⟩ : Shape).Idx → EReal) (z : IVec ⟨2, ![N, Gr]⟩ 32)
    (A : (⟨2, ![M', K]⟩ : Shape).Idx → EReal) (Q : IVec ⟨2, ![N', K]⟩ 32) (S : (⟨2, ![N', Gr]⟩ : Shape).Idx → EReal) (Z : IVec ⟨2, ![N', Gr]⟩ 32)
    (m : Fin M) (n : Fin N) (m' : Fin M') (n' : Fin N')
    (ha : ∀ k, a (ix2 m k) = A (ix2 m' k)) (hq : ∀ k, q (ix2 n k) = Q (ix2 n' k))
    (hs : ∀ g, s (ix2 n g) = S (ix2 n' g)) (hz : ∀ g, z (ix2 n g) = Z (ix2 n' g)) :
    downProj hK a q s z m n = downProj hK A Q S Z m' n' := by
  unfold downProj deq
  refine Finset.sum_congr rfl fun k _ => ?_
  rw [ha k, hq k, hs (grp hK k), hz (grp hK k)]

/-- The whole MLP at (b, s, n): the up projection of row (b, s) of x against every weight row i, relu², then the
    down projection of those I values against row n of the second weight. -/
def mlp {B S H I G1 G2 : ℕ} (hH : H = G1 * 128) (hI : I = G2 * 128) (x : (⟨3, ![B, S, H]⟩ : Shape).Idx → EReal)
    (q1 : IVec ⟨2, ![I, H]⟩ 32) (s1 : (⟨2, ![I, G1]⟩ : Shape).Idx → EReal) (z1 : IVec ⟨2, ![I, G1]⟩ 32)
    (q2 : IVec ⟨2, ![H, I]⟩ 32) (s2 : (⟨2, ![H, G2]⟩ : Shape).Idx → EReal) (z2 : IVec ⟨2, ![H, G2]⟩ 32)
    (b : Fin B) (s : Fin S) (n : Fin H) : EReal :=
  ∑ i : Fin I, reluSq (∑ h : Fin H, x (ix3 b s h) * deq hH q1 s1 z1 i h) * deq hI q2 s2 z2 n i

end Cert.QuantMlp

end
-- ==== Proof.UpBody.lean ====
/-
  What the up-projection kernel's body stores, entry by entry, on the extended reals.

  The body loads a block x0 [64, 4096] of activations and a block of 896 weight rows (integers x1 [896, 4096],
  scales x2 and zero points x3 [896, 32]). It regroups each weight row into 32 groups of 128 columns,
  subtracts the group's zero point, reads the difference as a real and multiplies by the group's scale: entry
  (r, k) of the weight block is the dequantized weight of the specification (the column k = g * 128 + l sits
  in group g = k / 128). The product contracts the columns of both blocks from the zero accumulator, so entry
  (p, r) is the dot product of row p of x0 with row r of that weight; the positive part, squared, is what is
  stored (a change of float format is the identity here).
-/
import proofs.«150182_j83416854823033_2_alg».proof.Proof.Gen.KernelIdeal.Skeleton
import proofs.«150182_j83416854823033_2_alg».proof.Proof.LibAxisReads
import proofs.«150182_j83416854823033_2_alg».proof.Proof.LibGroupCasts
import proofs.«150182_j83416854823033_2_alg».proof.Proof.LibMatmulRows
import proofs.«150182_j83416854823033_2_alg».proof.Proof.Spec

noncomputable section

namespace Cert.KernelIdeal.UpBody

open Cert.KernelIdeal Idealize.ShloMosaic Idealize.ShloMosaic.ValueIdx Cert.QuantMlp
open Cert.KernelIdeal.Facts₀

theorem cols : (4096 : ℕ) = 32 * 128 := rfl

/-- The weight block the body builds: regrouped, shifted by the zero points, scaled, and laid back as a matrix. -/
def weight (x1 : Vec Ideal S896x4096 .i32) (x2 : Vec Ideal S896x32 .f32) (x3 : Vec Ideal S896x32 .i32) : FVec Ideal S896x4096 .f32 :=
  shapeCast S896x4096
    (mulf (sitofp .f32 (subi (shapeCast S896x32x128 x1 shapeCasts_S896x4096_S896x32x128)
        (broadcastTo S896x32x128 (shapeCast S896x32x1 x3 shapeCasts_S896x32_S896x32x1) broadcasts_S896x32x1_S896x32x128)))
      (broadcastTo S896x32x128 (shapeCast S896x32x1 x2 shapeCasts_S896x32_S896x32x1) broadcasts_S896x32x1_S896x32x128))
    shapeCasts_S896x32x128_S896x4096

/-- Entry (r, k) of that weight block is the dequantized weight: column k lies in group k / 128 at place k % 128. -/
theorem weight_apply (x1 : Vec Ideal S896x4096 .i32) (x2 : Vec Ideal S896x32 .f32) (x3 : Vec Ideal S896x32 .i32)
    (r : Fin 896) (k : Fin 4096) : weight x1 x2 x3 (ix2 r k) = deq cols x1 x2 x3 r k := by
  have hl : k.val % 128 < 128 := Nat.mod_lt _ (by decide)
  have hk : k.val = (grp cols k).val * 128 + (⟨k.val % 128, hl⟩ : Fin 128).val := by
    show k.val = k.val / 128 * 128 + k.val % 128
    omega
  unfold weight
  refine (Cert.GroupCasts.shapeCast_grouped_rows_apply cols _ shapeCasts_S896x32x128_S896x4096 r (grp cols k) ⟨k.val % 128, hl⟩ k hk).trans ?_
  have hq : shapeCast S896x32x128 x1 shapeCasts_S896x4096_S896x32x128 (ix3 r (grp cols k) (⟨k.val % 128, hl⟩ : Fin 128)) = x1 (ix2 r k) :=
    Cert.GroupCasts.shapeCast_rows_grouped_apply cols x1 shapeCasts_S896x4096_S896x32x128 r (grp cols k) ⟨k.val % 128, hl⟩ k hk
  have hz : broadcastTo S896x32x128 (shapeCast S896x32x1 x3 shapeCasts_S896x32_S896x32x1) broadcasts_S896x32x1_S896x32x128
      (ix3 r (grp cols k) (⟨k.val % 128, hl⟩ : Fin 128)) = x3 (ix2 r (grp cols k)) :=
    (Cert.AxisReads.broadcastTo_ab1_abc_apply _ broadcasts_S896x32x1_S896x32x128 r (grp cols k) ⟨k.val % 128, hl⟩).trans
      (Cert.AxisReads.shapeCast_ab_ab1_apply x3 shapeCasts_S896x32_S896x32x1 r (grp cols k) 0)
  have hs : broadcastTo S896x32x128 (shapeCast S896x32x1 x2 shapeCasts_S896x32_S896x32x1) broadcasts_S896x32x1_S896x32x128
      (ix3 r (grp cols k) (⟨k.val % 128, hl⟩ : Fin 128)) = x2 (ix2 r (grp cols k)) :=
    (Cert.AxisReads.broadcastTo_ab1_abc_apply _ broadcasts_S896x32x1_S896x32x128 r (grp cols k) ⟨k.val % 128, hl⟩).trans
      (Cert.AxisReads.shapeCast_ab_ab1_apply x2 shapeCasts_S896x32_S896x32x1 r (grp cols k) 0)
  show FloatOps.sitofp (F := Ideal) .f32 (IntOp.subi
        (shapeCast S896x32x128 x1 shapeCasts_S896x4096_S896x32x128 (ix3 r (grp cols k) (⟨k.val % 128, hl⟩ : Fin 128)))
        (broadcastTo S896x32x128 (shapeCast S896x32x1 x3 shapeCasts_S896x32_S896x32x1) broadcasts_S896x32x1_S896x32x128
          (ix3 r (grp cols k) (⟨k.val % 128, hl⟩ : Fin 128))))
      * broadcastTo S896x32x128 (shapeCast S896x32x1 x2 shapeCasts_S896x32_S896x32x1) broadcasts_S896x32x1_S896x32x128
          (ix3 r (grp cols k) (⟨k.val % 128, hl⟩ : Fin 128)) = _
  rw [hq, hz, hs]
  rfl

/-- THE BODY'S STORED VALUE at (p, r): the up projection of the loaded blocks. -/
theorem payload_apply (x0 : Vec Ideal S64x4096 .f32) (x1 : Vec Ideal S896x4096 .i32) (x2 : Vec Ideal S896x32 .f32)
    (x3 : Vec Ideal S896x32 .i32) (p : Fin 64) (r : Fin 896) :
    Gen.k0_pay1 (F := Ideal) x0 x1 x2 x3 (ix2 p r) = upProj cols x0 x1 x2 x3 p r := by
  have hdot : FloatOps.matmul (F := Ideal) dot_S64x4096_S896x4096_S64x896_1_1_0_0_n_n none
        (truncf .bf16 (shapeCast S64x4096 x0 shapeCasts_S64x4096_S64x4096) bitsLt_bf16_f32)
        (truncf .bf16 (weight x1 x2 x3) bitsLt_bf16_f32) (constant (F := Ideal) S64x896 .f32 0x00000000#32) (ix2 p r)
      = ∑ k : Fin 4096, x0 (ix2 p k) * deq cols x1 x2 x3 r k := by
    refine (Cert.MatmulRows.matmul_rows_apply dot_S64x4096_S896x4096_S64x896_1_1_0_0_n_n none rfl rfl rfl rfl rfl rfl _ _ p r).trans ?_
    refine Finset.sum_congr rfl fun k _ => ?_
    show shapeCast S64x4096 x0 shapeCasts_S64x4096_S64x4096 (ix2 p k) * weight x1 x2 x3 (ix2 r k) = _
    rw [shapeCast_self, weight_apply]
  show reluSq (FloatOps.matmul (F := Ideal) dot_S64x4096_S896x4096_S64x896_1_1_0_0_n_n none
        (truncf .bf16 (shapeCast S64x4096 x0 shapeCasts_S64x4096_S64x4096) bitsLt_bf16_f32)
        (truncf .bf16 (weight x1 x2 x3) bitsLt_bf16_f32) (constant (F := Ideal) S64x896 .f32 0x00000000#32) (ix2 p r)) = _
  rw [hdot]
  rfl

end Cert.KernelIdeal.UpBody

end
-- ==== Proof.UpArray.lean ====
/-
  The up-projection region: its result array after all grid points is the up projection of the arrays it finds.

  The grid has 16 x 64 points; point t works on the block of 64 activation rows number t % 64 and on the block of
  896 weight rows number t / 64, and writes back the [64, 896] block of the result at block row t % 64, block column
  t / 64. Row p of that activation block is row (t % 64) * 64 + p of the whole array and row r of the weight block is
  row (t / 64) * 896 + r, and an entry of the projection reads one row of each: so what point t writes back is
  exactly block t of the whole-array projection. The blocks tile the result (entry (i0, i1) lies in the block of
  point (i1 / 896) * 64 + i0 / 64), hence after the last point the array is the projection of the arrays the region
  was entered with.
-/
import proofs.«150182_j83416854823033_2_alg».proof.Proof.Gen.KernelIdeal.Frame
import proofs.«150182_j83416854823033_2_alg».proof.Proof.UpBody
import Idealize.ShloMosaic.Lib.Pipeline.Value

noncomputable section

namespace Cert.KernelIdeal.UpArray

open Cert.KernelIdeal Idealize.ShloMosaic Idealize.ShloMosaic.TcCoe Idealize.ShloMosaic.ValueIdx Idealize.SL.Sem Cert.QuantMlp
open Idealize.ShloMosaic.Pipeline (Dat)
open Cert.KernelIdeal.UpBody (cols)

variable (V : (c : Dev nD) → (b : Ref sig .tc) → Buf (Elt Ideal) ((c : Thread nD τ).loc b))

/-- The projection of the arrays the region is entered with, entry by entry. -/
def whole (c : Dev nD) : S4096x14336.Idx → EReal := fun i =>
  upProj cols (V c main_v0) (V c main_arg1) (V c main_arg2) (V c main_arg3) (i 0) (i 1)

theorem origin : (![0, 0] : Fin 2 → Nat) = fun _ => 0 := funext fun a => by fin_cases a <;> rfl

/-- The printed index maps at every grid point: the activation block moves with the result's block row, the weight,
    scale and zero-point blocks with its block column, each spanning all its columns; point t has block row t % 64 and
    block column t / 64. -/
theorem index_maps : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = win0_4.index t (1 : Fin 2)
    ∧ win0_2.index t (1 : Fin 2) = 0
    ∧ win0_3.index t (0 : Fin 2) = win0_4.index t (1 : Fin 2)
    ∧ win0_3.index t (1 : Fin 2) = 0
    ∧ win0_4.index t (0 : Fin 2) = t.val % 64
    ∧ win0_4.index t (1 : Fin 2) = t.val / 64 :=
  (by decide +kernel : ∀ t : Fin grid0.N, _)

/-- The body's stored entry (p, r) at point t is the whole-array projection at the entry's place in the result. -/
theorem block_entry (c : Dev nD) (t : Fin cfg0.N) (p : Fin 64) (r : Fin 896) (m' : Fin 4096) (n' : Fin 14336)
    (hm : m'.val = win0_4.index t (0 : Fin 2) * 64 + p.val) (hn : n'.val = win0_4.index t (1 : Fin 2) * 896 + r.val) :
    Gen.k0_pay1 (F := Ideal) (Gen.iblk0 V c 0 t) (Gen.iblk0 V c 1 t) (Gen.iblk0 V c 2 t) (Gen.iblk0 V c 3 t) (ix2 p r)
      = upProj cols (V c main_v0) (V c main_arg1) (V c main_arg2) (V c main_arg3) m' n' := by
  obtain ⟨e00, e01, e10, e11, e20, e21, e30, e31, -, -⟩ := index_maps t
  refine (Cert.KernelIdeal.UpBody.payload_apply (Gen.iblk0 V c 0 t) (Gen.iblk0 V c 1 t) (Gen.iblk0 V c 2 t) (Gen.iblk0 V c 3 t) p r).trans ?_
  refine upProj_rows cols (Gen.iblk0 V c 0 t) (Gen.iblk0 V c 1 t) (Gen.iblk0 V c 2 t) (Gen.iblk0 V c 3 t)
    (V c main_v0) (V c main_arg1) (V c main_arg2) (V c main_arg3) p r m' n' ?_ ?_ ?_ ?_
  · intro k
    show V c main_v0 (((cfg0.win 0).blk t).view.emb (ix2 p k)) = V c main_v0 (ix2 m' k)
    refine congrArg (V c main_v0) (funext fun a => Fin.ext ?_)
    match a with
    | ⟨0, _⟩ => show win0_0.index t (0 : Fin 2) * 64 + 1 * p.val = m'.val; omega
    | ⟨1, _⟩ => show win0_0.index t (1 : Fin 2) * 4096 + 1 * k.val = k.val; omega
  · intro k
    show V c main_arg1 (((cfg0.win 1).blk t).view.emb (ix2 r k)) = V c main_arg1 (ix2 n' k)
    refine congrArg (V c main_arg1) (funext fun a => Fin.ext ?_)
    match a with
    | ⟨0, _⟩ => show win0_1.index t (0 : Fin 2) * 896 + 1 * r.val = n'.val; omega
    | ⟨1, _⟩ => show win0_1.index t (1 : Fin 2) * 4096 + 1 * k.val = k.val; omega
  · intro g
    show V c main_arg2 (((cfg0.win 2).blk t).view.emb (ix2 r g)) = V c main_arg2 (ix2 n' g)
    refine congrArg (V c main_arg2) (funext fun a => Fin.ext ?_)
    match a with
    | ⟨0, _⟩ => show win0_2.index t (0 : Fin 2) * 896 + 1 * r.val = n'.val; omega
    | ⟨1, _⟩ => show win0_2.index t (1 : Fin 2) * 32 + 1 * g.val = g.val; omega
  · intro g
    show V c main_arg3 (((cfg0.win 3).blk t).view.emb (ix2 r g)) = V c main_arg3 (ix2 n' g)
    refine congrArg (V c main_arg3) (funext fun a => Fin.ext ?_)
    match a with
    | ⟨0, _⟩ => show win0_3.index t (0 : Fin 2) * 896 + 1 * r.val = n'.val; omega
    | ⟨1, _⟩ => show win0_3.index t (1 : Fin 2) * 32 + 1 * g.val = g.val; omega

/-- WHAT POINT t WRITES BACK is block t of the whole-array projection. -/
theorem flushed_eq (c : Dev nD) (t : Fin cfg0.N) :
    (Gen.dat0 V c).flushed 4 t = ((cfg0.win 4).blk t).view.read (Elt Ideal) (whole V c) := by
  show (cfg0.win 4).cut (grid0.coords t) ((Gen.dat0 V c).after 4 t) = _
  rw [Gen.after0_4]
  unfold Gen.out0_4
  rw [View.canon_unit_zero origin]
  simp only [View.ld_unit_zero (S := S64x4096) origin, View.ld_unit_zero (S := S896x4096) origin, View.ld_unit_zero (S := S896x32) origin]
  funext j
  obtain ⟨p, r, rfl⟩ : ∃ (p : Fin 64) (r : Fin 896), j = ix2 p r := ⟨j 0, j 1, eq_ix2 j⟩
  exact block_entry V c t p r _ _
    (show win0_4.index t (0 : Fin 2) * 64 + 1 * p.val = win0_4.index t (0 : Fin 2) * 64 + p.val by omega)
    (show win0_4.index t (1 : Fin 2) * 896 + 1 * r.val = win0_4.index t (1 : Fin 2) * 896 + r.val by omega)

/-- An entry of the result lies in point t's block iff each coordinate is in the block's range on its axis. -/
theorem mem_blk (t : Fin cfg0.N) (i : S4096x14336.Idx) :
    i ∈ ((cfg0.win 4).blk t).view.set ↔ ∀ a : Fin 2, win0_4.index t a * S64x896.size a ≤ (i a).val ∧ (i a).val < win0_4.index t a * S64x896.size a + S64x896.size a := by
  show i ∈ ((View.whole main_v1).slice (win0_4.rect t)).set ↔ _
  rw [View.set_slice_whole, Rect.mem_set_unit]
  exact Iff.rfl

/-- Every entry of the result is written back by some point: the one whose block row and block column hold it. -/
theorem cover (i : S4096x14336.Idx) : ∃ t : Fin cfg0.N, (cfg0.win 4).flush t = true ∧ i ∈ ((cfg0.win 4).blk t).view.set := by
  have hi0 : (i 0).val < 4096 := (i 0).isLt
  have hi1 : (i 1).val < 14336 := (i 1).isLt
  have hlt : (i 1).val / 896 * 64 + (i 0).val / 64 < 1024 := by omega
  obtain ⟨t, ht⟩ : ∃ t : Fin cfg0.N, t.val = (i 1).val / 896 * 64 + (i 0).val / 64 :=
    ⟨⟨(i 1).val / 896 * 64 + (i 0).val / 64, lt_of_lt_of_eq hlt Gen.N_0.symm⟩, rfl⟩
  obtain ⟨-, -, -, -, -, -, -, -, e40, e41⟩ := index_maps t
  refine ⟨t, Gen.flush0_4 t, ?_⟩
  rw [mem_blk]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 896 ≤ (i 1).val ∧ (i 1).val < win0_4.index t (1 : Fin 2) * 896 + 896; omega

/-- THE RESULT ARRAY after the region is the projection of the arrays the region was entered with. -/
theorem array_eq (c : Dev nD) : (Gen.dat0 V c).arrAt 4 cfg0.N = whole V c :=
  (Gen.dat0 V c).arrAt_eq_of_cover 4 (whole V c) (fun t _ => flushed_eq V c t) (cover)

end Cert.KernelIdeal.UpArray

end
-- ==== Proof.DownBody.lean ====
/-
  What the down-projection kernel's body stores, entry by entry, on the extended reals.

  The body loads a block a0 [64, 14336] of activations and a block of 256 weight rows (integers x1
  [256, 14336], scales x2 and zero points x3 [256, 112]). It regroups each weight row into 112 groups of 128
  columns, subtracts the group's zero point, reads the difference as a real and multiplies by the group's
  scale: entry (r, k) of the weight block is the dequantized weight of the specification. The product
  contracts the columns of both blocks from the zero accumulator, so the stored entry (p, r) is the dot
  product of row p of a0 with row r of that weight.
-/
import proofs.«150182_j83416854823033_2_alg».proof.Proof.Gen.KernelIdeal.Skeleton
import proofs.«150182_j83416854823033_2_alg».proof.Proof.LibAxisReads
import proofs.«150182_j83416854823033_2_alg».proof.Proof.LibGroupCasts
import proofs.«150182_j83416854823033_2_alg».proof.Proof.LibMatmulRows
import proofs.«150182_j83416854823033_2_alg».proof.Proof.Spec

noncomputable section

namespace Cert.KernelIdeal.DownBody

open Cert.KernelIdeal Idealize.ShloMosaic Idealize.ShloMosaic.ValueIdx Cert.QuantMlp
open Cert.KernelIdeal.Facts₀

theorem cols : (14336 : ℕ) = 112 * 128 := rfl

/-- The weight block the body builds: regrouped, shifted by the zero points, scaled, and laid back as a matrix. -/
def weight (x1 : Vec Ideal S256x14336 .i32) (x2 : Vec Ideal S256x112 .f32) (x3 : Vec Ideal S256x112 .i32) : FVec Ideal S256x14336 .f32 :=
  shapeCast S256x14336
    (mulf (sitofp .f32 (subi (shapeCast S256x112x128 x1 shapeCasts_S256x14336_S256x112x128)
        (broadcastTo S256x112x128 (shapeCast S256x112x1 x3 shapeCasts_S256x112_S256x112x1) broadcasts_S256x112x1_S256x112x128)))
      (broadcastTo S256x112x128 (shapeCast S256x112x1 x2 shapeCasts_S256x112_S256x112x1) broadcasts_S256x112x1_S256x112x128))
    shapeCasts_S256x112x128_S256x14336

/-- Entry (r, k) of that weight block is the dequantized weight: column k lies in group k / 128 at place k % 128. -/
theorem weight_apply (x1 : Vec Ideal S256x14336 .i32) (x2 : Vec Ideal S256x112 .f32) (x3 : Vec Ideal S256x112 .i32)
    (r : Fin 256) (k : Fin 14336) : weight x1 x2 x3 (ix2 r k) = deq cols x1 x2 x3 r k := by
  have hl : k.val % 128 < 128 := Nat.mod_lt _ (by decide)
  have hk : k.val = (grp cols k).val * 128 + (⟨k.val % 128, hl⟩ : Fin 128).val := by
    show k.val = k.val / 128 * 128 + k.val % 128
    omega
  unfold weight
  refine (Cert.GroupCasts.shapeCast_grouped_rows_apply cols _ shapeCasts_S256x112x128_S256x14336 r (grp cols k) ⟨k.val % 128, hl⟩ k hk).trans ?_
  have hq : shapeCast S256x112x128 x1 shapeCasts_S256x14336_S256x112x128 (ix3 r (grp cols k) (⟨k.val % 128, hl⟩ : Fin 128)) = x1 (ix2 r k) :=
    Cert.GroupCasts.shapeCast_rows_grouped_apply cols x1 shapeCasts_S256x14336_S256x112x128 r (grp cols k) ⟨k.val % 128, hl⟩ k hk
  have hz : broadcastTo S256x112x128 (shapeCast S256x112x1 x3 shapeCasts_S256x112_S256x112x1) broadcasts_S256x112x1_S256x112x128
      (ix3 r (grp cols k) (⟨k.val % 128, hl⟩ : Fin 128)) = x3 (ix2 r (grp cols k)) :=
    (Cert.AxisReads.broadcastTo_ab1_abc_apply _ broadcasts_S256x112x1_S256x112x128 r (grp cols k) ⟨k.val % 128, hl⟩).trans
      (Cert.AxisReads.shapeCast_ab_ab1_apply x3 shapeCasts_S256x112_S256x112x1 r (grp cols k) 0)
  have hs : broadcastTo S256x112x128 (shapeCast S256x112x1 x2 shapeCasts_S256x112_S256x112x1) broadcasts_S256x112x1_S256x112x128
      (ix3 r (grp cols k) (⟨k.val % 128, hl⟩ : Fin 128)) = x2 (ix2 r (grp cols k)) :=
    (Cert.AxisReads.broadcastTo_ab1_abc_apply _ broadcasts_S256x112x1_S256x112x128 r (grp cols k) ⟨k.val % 128, hl⟩).trans
      (Cert.AxisReads.shapeCast_ab_ab1_apply x2 shapeCasts_S256x112_S256x112x1 r (grp cols k) 0)
  show FloatOps.sitofp (F := Ideal) .f32 (IntOp.subi
        (shapeCast S256x112x128 x1 shapeCasts_S256x14336_S256x112x128 (ix3 r (grp cols k) (⟨k.val % 128, hl⟩ : Fin 128)))
        (broadcastTo S256x112x128 (shapeCast S256x112x1 x3 shapeCasts_S256x112_S256x112x1) broadcasts_S256x112x1_S256x112x128
          (ix3 r (grp cols k) (⟨k.val % 128, hl⟩ : Fin 128))))
      * broadcastTo S256x112x128 (shapeCast S256x112x1 x2 shapeCasts_S256x112_S256x112x1) broadcasts_S256x112x1_S256x112x128
          (ix3 r (grp cols k) (⟨k.val % 128, hl⟩ : Fin 128)) = _
  rw [hq, hz, hs]
  rfl

/-- THE BODY'S STORED VALUE at (p, r): the down projection of the loaded blocks. -/
theorem payload_apply (a0 : Vec Ideal S64x14336 .bf16) (x1 : Vec Ideal S256x14336 .i32) (x2 : Vec Ideal S256x112 .f32)
    (x3 : Vec Ideal S256x112 .i32) (p : Fin 64) (r : Fin 256) :
    Gen.k1_pay1 (F := Ideal) a0 x1 x2 x3 (ix2 p r) = downProj cols a0 x1 x2 x3 p r := by
  show FloatOps.matmul (F := Ideal) dot_S64x14336_S256x14336_S64x256_1_1_0_0_n_n none
        (shapeCast S64x14336 a0 shapeCasts_S64x14336_S64x14336)
        (truncf .bf16 (weight x1 x2 x3) bitsLt_bf16_f32) (constant (F := Ideal) S64x256 .f32 0x00000000#32) (ix2 p r) = _
  refine (Cert.MatmulRows.matmul_rows_apply dot_S64x14336_S256x14336_S64x256_1_1_0_0_n_n none rfl rfl rfl rfl rfl rfl _ _ p r).trans ?_
  refine Finset.sum_congr rfl fun k _ => ?_
  show shapeCast S64x14336 a0 shapeCasts_S64x14336_S64x14336 (ix2 p k) * weight x1 x2 x3 (ix2 r k) = _
  rw [shapeCast_self, weight_apply]

end Cert.KernelIdeal.DownBody

end
-- ==== Proof.DownArray.lean ====
/-
  The down-projection region: its result array after all grid points is the down projection of the arrays it finds.

  The grid has 16 x 64 points; point t works on the block of 64 activation rows number t % 64 and on the block of
  256 weight rows number t / 64, and writes back the [64, 256] block of the result at block row t % 64, block column
  t / 64. Row p of that activation block is row (t % 64) * 64 + p of the whole array and row r of the weight block is
  row (t / 64) * 256 + r, and an entry of the projection reads one row of each: so what point t writes back is
  exactly block t of the whole-array projection. The blocks tile the result (entry (i0, i1) lies in the block of
  point (i1 / 256) * 64 + i0 / 64), hence after the last point the array is the projection of the arrays the region
  was entered with.
-/
import proofs.«150182_j83416854823033_2_alg».proof.Proof.Gen.KernelIdeal.Frame
import proofs.«150182_j83416854823033_2_alg».proof.Proof.DownBody
import Idealize.ShloMosaic.Lib.Pipeline.Value

noncomputable section

namespace Cert.KernelIdeal.DownArray

open Cert.KernelIdeal Idealize.ShloMosaic Idealize.ShloMosaic.TcCoe Idealize.ShloMosaic.ValueIdx Idealize.SL.Sem Cert.QuantMlp
open Idealize.ShloMosaic.Pipeline (Dat)
open Cert.KernelIdeal.DownBody (cols)

variable (V : (c : Dev nD) → (b : Ref sig .tc) → Buf (Elt Ideal) ((c : Thread nD τ).loc b))

/-- The projection of the arrays the region is entered with, entry by entry. -/
def whole (c : Dev nD) : S4096x4096.Idx → EReal := fun i =>
  downProj cols (V c main_v1) (V c main_arg4) (V c main_arg5) (V c main_arg6) (i 0) (i 1)

theorem origin : (![0, 0] : Fin 2 → Nat) = fun _ => 0 := funext fun a => by fin_cases a <;> rfl

/-- The printed index maps at every grid point: the activation block moves with the result's block row, the weight,
    scale and zero-point blocks with its block column, each spanning all its columns; point t has block row t % 64 and
    block column t / 64. -/
theorem index_maps : ∀ t : Fin cfg1.N, win1_0.index t (0 : Fin 2) = win1_4.index t (0 : Fin 2)
    ∧ win1_0.index t (1 : Fin 2) = 0
    ∧ win1_1.index t (0 : Fin 2) = win1_4.index t (1 : Fin 2)
    ∧ win1_1.index t (1 : Fin 2) = 0
    ∧ win1_2.index t (0 : Fin 2) = win1_4.index t (1 : Fin 2)
    ∧ win1_2.index t (1 : Fin 2) = 0
    ∧ win1_3.index t (0 : Fin 2) = win1_4.index t (1 : Fin 2)
    ∧ win1_3.index t (1 : Fin 2) = 0
    ∧ win1_4.index t (0 : Fin 2) = t.val % 64
    ∧ win1_4.index t (1 : Fin 2) = t.val / 64 :=
  (by decide +kernel : ∀ t : Fin grid1.N, _)

/-- The body's stored entry (p, r) at point t is the whole-array projection at the entry's place in the result. -/
theorem block_entry (c : Dev nD) (t : Fin cfg1.N) (p : Fin 64) (r : Fin 256) (m' : Fin 4096) (n' : Fin 4096)
    (hm : m'.val = win1_4.index t (0 : Fin 2) * 64 + p.val) (hn : n'.val = win1_4.index t (1 : Fin 2) * 256 + r.val) :
    Gen.k1_pay1 (F := Ideal) (Gen.iblk1 V c 0 t) (Gen.iblk1 V c 1 t) (Gen.iblk1 V c 2 t) (Gen.iblk1 V c 3 t) (ix2 p r)
      = downProj cols (V c main_v1) (V c main_arg4) (V c main_arg5) (V c main_arg6) m' n' := by
  obtain ⟨e00, e01, e10, e11, e20, e21, e30, e31, -, -⟩ := index_maps t
  refine (Cert.KernelIdeal.DownBody.payload_apply (Gen.iblk1 V c 0 t) (Gen.iblk1 V c 1 t) (Gen.iblk1 V c 2 t) (Gen.iblk1 V c 3 t) p r).trans ?_
  refine downProj_rows cols (Gen.iblk1 V c 0 t) (Gen.iblk1 V c 1 t) (Gen.iblk1 V c 2 t) (Gen.iblk1 V c 3 t)
    (V c main_v1) (V c main_arg4) (V c main_arg5) (V c main_arg6) p r m' n' ?_ ?_ ?_ ?_
  · intro k
    show V c main_v1 (((cfg1.win 0).blk t).view.emb (ix2 p k)) = V c main_v1 (ix2 m' k)
    refine congrArg (V c main_v1) (funext fun a => Fin.ext ?_)
    match a with
    | ⟨0, _⟩ => show win1_0.index t (0 : Fin 2) * 64 + 1 * p.val = m'.val; omega
    | ⟨1, _⟩ => show win1_0.index t (1 : Fin 2) * 14336 + 1 * k.val = k.val; omega
  · intro k
    show V c main_arg4 (((cfg1.win 1).blk t).view.emb (ix2 r k)) = V c main_arg4 (ix2 n' k)
    refine congrArg (V c main_arg4) (funext fun a => Fin.ext ?_)
    match a with
    | ⟨0, _⟩ => show win1_1.index t (0 : Fin 2) * 256 + 1 * r.val = n'.val; omega
    | ⟨1, _⟩ => show win1_1.index t (1 : Fin 2) * 14336 + 1 * k.val = k.val; omega
  · intro g
    show V c main_arg5 (((cfg1.win 2).blk t).view.emb (ix2 r g)) = V c main_arg5 (ix2 n' g)
    refine congrArg (V c main_arg5) (funext fun a => Fin.ext ?_)
    match a with
    | ⟨0, _⟩ => show win1_2.index t (0 : Fin 2) * 256 + 1 * r.val = n'.val; omega
    | ⟨1, _⟩ => show win1_2.index t (1 : Fin 2) * 112 + 1 * g.val = g.val; omega
  · intro g
    show V c main_arg6 (((cfg1.win 3).blk t).view.emb (ix2 r g)) = V c main_arg6 (ix2 n' g)
    refine congrArg (V c main_arg6) (funext fun a => Fin.ext ?_)
    match a with
    | ⟨0, _⟩ => show win1_3.index t (0 : Fin 2) * 256 + 1 * r.val = n'.val; omega
    | ⟨1, _⟩ => show win1_3.index t (1 : Fin 2) * 112 + 1 * g.val = g.val; omega

/-- WHAT POINT t WRITES BACK is block t of the whole-array projection. -/
theorem flushed_eq (c : Dev nD) (t : Fin cfg1.N) :
    (Gen.dat1 V c).flushed 4 t = ((cfg1.win 4).blk t).view.read (Elt Ideal) (whole V c) := by
  show (cfg1.win 4).cut (grid1.coords t) ((Gen.dat1 V c).after 4 t) = _
  rw [Gen.after1_4]
  unfold Gen.out1_4
  rw [View.canon_unit_zero origin]
  simp only [View.ld_unit_zero (S := S64x14336) origin, View.ld_unit_zero (S := S256x14336) origin, View.ld_unit_zero (S := S256x112) origin]
  funext j
  obtain ⟨p, r, rfl⟩ : ∃ (p : Fin 64) (r : Fin 256), j = ix2 p r := ⟨j 0, j 1, eq_ix2 j⟩
  exact block_entry V c t p r _ _
    (show win1_4.index t (0 : Fin 2) * 64 + 1 * p.val = win1_4.index t (0 : Fin 2) * 64 + p.val by omega)
    (show win1_4.index t (1 : Fin 2) * 256 + 1 * r.val = win1_4.index t (1 : Fin 2) * 256 + r.val by omega)

/-- An entry of the result lies in point t's block iff each coordinate is in the block's range on its axis. -/
theorem mem_blk (t : Fin cfg1.N) (i : S4096x4096.Idx) :
    i ∈ ((cfg1.win 4).blk t).view.set ↔ ∀ a : Fin 2, win1_4.index t a * S64x256.size a ≤ (i a).val ∧ (i a).val < win1_4.index t a * S64x256.size a + S64x256.size a := by
  show i ∈ ((View.whole main_v2).slice (win1_4.rect t)).set ↔ _
  rw [View.set_slice_whole, Rect.mem_set_unit]
  exact Iff.rfl

/-- Every entry of the result is written back by some point: the one whose block row and block column hold it. -/
theorem cover (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  have hlt : (i 1).val / 256 * 64 + (i 0).val / 64 < 1024 := by omega
  obtain ⟨t, ht⟩ : ∃ t : Fin cfg1.N, t.val = (i 1).val / 256 * 64 + (i 0).val / 64 :=
    ⟨⟨(i 1).val / 256 * 64 + (i 0).val / 64, lt_of_lt_of_eq hlt Gen.N_1.symm⟩, rfl⟩
  obtain ⟨-, -, -, -, -, -, -, -, e40, e41⟩ := index_maps t
  refine ⟨t, Gen.flush1_4 t, ?_⟩
  rw [mem_blk]
  intro a
  match a with
  | ⟨0, _⟩ => show win1_4.index t (0 : Fin 2) * 64 ≤ (i 0).val ∧ (i 0).val < win1_4.index t (0 : Fin 2) * 64 + 64; omega
  | ⟨1, _⟩ => show win1_4.index t (1 : Fin 2) * 256 ≤ (i 1).val ∧ (i 1).val < win1_4.index t (1 : Fin 2) * 256 + 256; omega

/-- THE RESULT ARRAY after the region is the projection of the arrays the region was entered with. -/
theorem array_eq (c : Dev nD) : (Gen.dat1 V c).arrAt 4 cfg1.N = whole V c :=
  (Gen.dat1 V c).arrAt_eq_of_cover 4 (whole V c) (fun t _ => flushed_eq V c t) (cover)

end Cert.KernelIdeal.DownArray

end
-- ==== Proof.KernelValue.lean ====
/-
  The kernel program's result buffer at the end of the fold, entry by entry: it is the MLP of the specification.

  The first reshape lays the activations [2, 2048, 4096] out as a tall matrix [4096, 4096]: row b * 2048 + s is
  row (b, s). The up-projection region finds that matrix and the first weight's three arrays as launched, and
  leaves the up projection [4096, 14336]; the down-projection region finds that array and the second weight's
  three arrays as launched (the first region does not touch them), and leaves the down projection [4096, 4096];
  the last reshape reads row b * 2048 + s of it back as row (b, s). Unfolding the two projections at an entry
  gives the sum over i of relu² of the dot product of row (b, s) with first-weight row i, times the second weight
  at (n, i).
-/
import proofs.«150182_j83416854823033_2_alg».proof.Proof.UpArray
import proofs.«150182_j83416854823033_2_alg».proof.Proof.DownArray
import Idealize.ShloMosaic.Lib.StableHlo.Run

noncomputable section

namespace Cert.KernelIdeal.Mlp

open Cert.KernelIdeal Cert.KernelIdeal.Gen Idealize.ShloMosaic Idealize.ShloMosaic.TcCoe Idealize.ShloMosaic.ValueIdx
open Idealize.SL.Sem Cert.QuantMlp Idealize.ShloMosaic.StableHlo

variable (m : (ℓ : Loc nD τ sig) → Buf (Elt Ideal) ℓ) (ρ : Dev nD → PrngReg)

/-! ## What the up-projection region is entered with -/

/-- The activations, reshaped to the tall matrix. -/
theorem entry_v0 (c : Dev nD) : V1 m ρ c main_v0
    = shapeCast S4096x4096 (m ((c : Thread nD τ).loc main_arg0)) Facts₀.shapeCasts_S2x2048x4096_S4096x4096 := by
  show StableHlo.after hostOps0 (W0 m ρ c) (Proc.devRef .tc main_v0) = _
  after_results <;> rfl

theorem entry_arg1 (c : Dev nD) : V1 m ρ c main_arg1 = m ((c : Thread nD τ).loc main_arg1) := by
  show StableHlo.after hostOps0 (W0 m ρ c) (Proc.devRef .tc main_arg1) = _
  after_results <;> rfl
theorem entry_arg2 (c : Dev nD) : V1 m ρ c main_arg2 = m ((c : Thread nD τ).loc main_arg2) := by
  show StableHlo.after hostOps0 (W0 m ρ c) (Proc.devRef .tc main_arg2) = _
  after_results <;> rfl
theorem entry_arg3 (c : Dev nD) : V1 m ρ c main_arg3 = m ((c : Thread nD τ).loc main_arg3) := by
  show StableHlo.after hostOps0 (W0 m ρ c) (Proc.devRef .tc main_arg3) = _
  after_results <;> rfl
theorem entry_arg4 (c : Dev nD) : V1 m ρ c main_arg4 = m ((c : Thread nD τ).loc main_arg4) := by
  show StableHlo.after hostOps0 (W0 m ρ c) (Proc.devRef .tc main_arg4) = _
  after_results <;> rfl
theorem entry_arg5 (c : Dev nD) : V1 m ρ c main_arg5 = m ((c : Thread nD τ).loc main_arg5) := by
  show StableHlo.after hostOps0 (W0 m ρ c) (Proc.devRef .tc main_arg5) = _
  after_results <;> rfl
theorem entry_arg6 (c : Dev nD) : V1 m ρ c main_arg6 = m ((c : Thread nD τ).loc main_arg6) := by
  show StableHlo.after hostOps0 (W0 m ρ c) (Proc.devRef .tc main_arg6) = _
  after_results <;> rfl

/-! ## What the down-projection region is entered with -/

/-- The up projection the first region left. -/
theorem mid_v1 (c : Dev nD) : V2 m ρ c main_v1 = UpArray.whole (V1 m ρ) c :=
  (W2_arr m ρ c 4).trans (UpArray.array_eq (V1 m ρ) c)

/-- The second weight's arrays are none of the first region's arrays: still as launched. -/
theorem mid_arg4 (c : Dev nD) : V2 m ρ c main_arg4 = m ((c : Thread nD τ).loc main_arg4) :=
  (W2_of_ne m ρ c main_arg4 (by decide)).trans (entry_arg4 m ρ c)
theorem mid_arg5 (c : Dev nD) : V2 m ρ c main_arg5 = m ((c : Thread nD τ).loc main_arg5) :=
  (W2_of_ne m ρ c main_arg5 (by decide)).trans (entry_arg5 m ρ c)
theorem mid_arg6 (c : Dev nD) : V2 m ρ c main_arg6 = m ((c : Thread nD τ).loc main_arg6) :=
  (W2_of_ne m ρ c main_arg6 (by decide)).trans (entry_arg6 m ρ c)

/-! ## The result buffer -/

/-- The result buffer holds the down projection the second region left, read back through the last reshape. -/
theorem result_fold (c : Dev nD) : W4 m ρ c (Proc.devRef .tc main_v3)
    = shapeCast S2x2048x4096 (DownArray.whole (V2 m ρ) c) Facts₀.shapeCasts_S4096x4096_S2x2048x4096 := by
  show StableHlo.after hostOps2 (W3 m ρ c) (Proc.devRef .tc main_v3) = _
  after_results
  exact congrArg (fun y => shapeCast S2x2048x4096 y Facts₀.shapeCasts_S4096x4096_S2x2048x4096)
    ((W3_arr m ρ c 4).trans (DownArray.array_eq (V2 m ρ) c))

/-- The down projection's operands, named by the launch memory. -/
theorem down_whole (c : Dev nD) : DownArray.whole (V2 m ρ) c = fun i =>
    downProj DownBody.cols (UpArray.whole (V1 m ρ) c) (m ((c : Thread nD τ).loc main_arg4))
      (m ((c : Thread nD τ).loc main_arg5)) (m ((c : Thread nD τ).loc main_arg6)) (i 0) (i 1) := by
  unfold DownArray.whole
  rw [mid_v1, mid_arg4, mid_arg5, mid_arg6]

/-- The up projection's operands, named by the launch memory. -/
theorem up_whole (c : Dev nD) : UpArray.whole (V1 m ρ) c = fun i =>
    upProj UpBody.cols (shapeCast S4096x4096 (m ((c : Thread nD τ).loc main_arg0)) Facts₀.shapeCasts_S2x2048x4096_S4096x4096)
      (m ((c : Thread nD τ).loc main_arg1)) (m ((c : Thread nD τ).loc main_arg2)) (m ((c : Thread nD τ).loc main_arg3)) (i 0) (i 1) := by
  unfold UpArray.whole
  rw [entry_v0, entry_arg1, entry_arg2, entry_arg3]

/-- THE RESULT at (b, s, n) is the MLP of the launch arrays. -/
theorem result_apply (c : Dev nD) (b : Fin 2) (s : Fin 2048) (n : Fin 4096) :
    W4 m ρ c (Proc.devRef .tc main_v3) (ix3 b s n)
      = mlp UpBody.cols DownBody.cols (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) b s n := by
  have hr : b.val * 2048 + s.val < 4096 := by have := b.isLt; have := s.isLt; omega
  rw [result_fold]
  refine (Cert.AxisReads.shapeCast_tall_stack_apply _ Facts₀.shapeCasts_S4096x4096_S2x2048x4096
    (⟨b.val * 2048 + s.val, hr⟩ : Fin 4096) b s n rfl).trans ?_
  rw [down_whole]
  show downProj DownBody.cols (UpArray.whole (V1 m ρ) c) (m ((c : Thread nD τ).loc main_arg4))
      (m ((c : Thread nD τ).loc main_arg5)) (m ((c : Thread nD τ).loc main_arg6)) (⟨b.val * 2048 + s.val, hr⟩ : Fin 4096) n = _
  unfold downProj mlp
  refine Finset.sum_congr rfl fun i _ => ?_
  rw [up_whole]
  show upProj UpBody.cols (shapeCast S4096x4096 (m ((c : Thread nD τ).loc main_arg0)) Facts₀.shapeCasts_S2x2048x4096_S4096x4096)
      (m ((c : Thread nD τ).loc main_arg1)) (m ((c : Thread nD τ).loc main_arg2)) (m ((c : Thread nD τ).loc main_arg3))
      (⟨b.val * 2048 + s.val, hr⟩ : Fin 4096) i * _ = _
  unfold upProj
  refine congrArg (fun y => reluSq y * deq DownBody.cols (m ((c : Thread nD τ).loc main_arg4))
      (m ((c : Thread nD τ).loc main_arg5)) (m ((c : Thread nD τ).loc main_arg6)) n i) (Finset.sum_congr rfl fun h _ => ?_)
  rw [Cert.AxisReads.shapeCast_stack_tall_apply (m ((c : Thread nD τ).loc main_arg0)) Facts₀.shapeCasts_S2x2048x4096_S4096x4096
    (⟨b.val * 2048 + s.val, hr⟩ : Fin 4096) b s h rfl]

/-- The result buffer is the MLP of the launch arrays. -/
theorem result_eq (c : Dev nD) : W4 m ρ c (Proc.devRef .tc main_v3) = fun j =>
    mlp UpBody.cols DownBody.cols (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (j 0) (j 1) (j 2) := by
  funext j
  obtain ⟨b, s, n, rfl⟩ : ∃ (b : Fin 2) (s : Fin 2048) (n : Fin 4096), j = ix3 b s n := ⟨j 0, j 1, j 2, eq_ix3 j⟩
  exact result_apply m ρ c b s n

end Cert.KernelIdeal.Mlp

end
-- ==== Proof.RefValue.lean ====
/-
  The reference program's result, entry by entry, on the extended reals: it is the MLP of the specification.

  The reference dequantizes each weight whole: it regroups a weight row into groups of 128 columns, subtracts the
  group's zero point, converts, scales, and lays the row back. Read at (i, h) through the two reshapes, the
  column h comes back to itself and its group is h / 128: the dequantized weight of the specification. The
  first contraction runs over the last axis of the activations [2, 2048, 4096] and the columns of the first
  weight, so at (b, s, i) it is the dot product of row (b, s) with weight row i; relu is the maximum with the
  zero constant and the square a product; the second contraction runs over i against row n of the second weight.
-/
import proofs.«150182_j83416854823033_2_alg».proof.Proof.Gen.ReferenceIdeal.Read
import proofs.«150182_j83416854823033_2_alg».proof.Proof.Spec

noncomputable section

namespace Cert.ReferenceIdeal.RefValue

open Cert.ReferenceIdeal Cert.ReferenceIdeal.Read Idealize.ShloMosaic Idealize.ShloMosaic.ValueIdx Cert.QuantMlp

theorem colsH : (4096 : ℕ) = 32 * 128 := rfl
theorem colsI : (14336 : ℕ) = 112 * 128 := rfl

/-- The first weight as the reference builds it, at (i, h): the dequantized weight. -/
theorem w_up_apply (x1 : (⟨S14336x4096, .i32⟩ : BufTy).Contents (Elt Ideal)) (x2 : (⟨S14336x32, .f32⟩ : BufTy).Contents (Elt Ideal))
    (x3 : (⟨S14336x32, .i32⟩ : BufTy).Contents (Elt Ideal)) (i : Fin 14336) (h : Fin 4096) :
    val_main_v8 (F := Ideal) x1 x2 x3 (ix2 i h) = deq colsH x1 x2 x3 i h := by
  have hi := i.isLt
  have hh := h.isLt
  have e0 : idx_main_v0 (idx_main_v8 (ix2 i h)) = ix2 i h := funext fun a => Fin.ext (by
    match a with
    | ⟨0, _⟩ =>
      show (((i.val * 4096 + h.val) / 4096 * 32 + (i.val * 4096 + h.val) / 128 % 32) * 128 + (i.val * 4096 + h.val) % 128) / 4096 = i.val
      omega
    | ⟨1, _⟩ =>
      show (((i.val * 4096 + h.val) / 4096 * 32 + (i.val * 4096 + h.val) / 128 % 32) * 128 + (i.val * 4096 + h.val) % 128) % 4096 = h.val
      omega)
  have e1 : idx_main_v1 (idx_main_v2 (idx_main_v8 (ix2 i h))) = ix2 i (grp colsH h) := funext fun a => Fin.ext (by
    match a with
    | ⟨0, _⟩ => show (i.val * 4096 + h.val) / 4096 = i.val; omega
    | ⟨1, _⟩ => show (i.val * 4096 + h.val) / 128 % 32 = h.val / 128; omega)
  have e2 : idx_main_v5 (idx_main_v6 (idx_main_v8 (ix2 i h))) = ix2 i (grp colsH h) := funext fun a => Fin.ext (by
    match a with
    | ⟨0, _⟩ => show (i.val * 4096 + h.val) / 4096 = i.val; omega
    | ⟨1, _⟩ => show (i.val * 4096 + h.val) / 128 % 32 = h.val / 128; omega)
  rw [val_main_v8_apply, val_main_v7_apply, val_main_v4_apply, val_main_v3_apply, val_main_v0_apply, val_main_v2_apply,
    val_main_v1_apply, val_main_v6_apply, val_main_v5_apply, e0, e1, e2]
  rfl

/-- The second weight as the reference builds it, at (n, i): the dequantized weight. -/
theorem w_down_apply (x4 : (⟨S4096x14336, .i32⟩ : BufTy).Contents (Elt Ideal)) (x5 : (⟨S4096x112, .f32⟩ : BufTy).Contents (Elt Ideal))
    (x6 : (⟨S4096x112, .i32⟩ : BufTy).Contents (Elt Ideal)) (n : Fin 4096) (i : Fin 14336) :
    val_main_v20 (F := Ideal) x4 x5 x6 (ix2 n i) = deq colsI x4 x5 x6 n i := by
  have hi := i.isLt
  have hn := n.isLt
  have e0 : idx_main_v12 (idx_main_v20 (ix2 n i)) = ix2 n i := funext fun a => Fin.ext (by
    match a with
    | ⟨0, _⟩ =>
      show (((n.val * 14336 + i.val) / 14336 * 112 + (n.val * 14336 + i.val) / 128 % 112) * 128 + (n.val * 14336 + i.val) % 128) / 14336 = n.val
      omega
    | ⟨1, _⟩ =>
      show (((n.val * 14336 + i.val) / 14336 * 112 + (n.val * 14336 + i.val) / 128 % 112) * 128 + (n.val * 14336 + i.val) % 128) % 14336 = i.val
      omega)
  have e1 : idx_main_v13 (idx_main_v14 (idx_main_v20 (ix2 n i))) = ix2 n (grp colsI i) := funext fun a => Fin.ext (by
    match a with
    | ⟨0, _⟩ => show (n.val * 14336 + i.val) / 14336 = n.val; omega
    | ⟨1, _⟩ => show (n.val * 14336 + i.val) / 128 % 112 = i.val / 128; omega)
  have e2 : idx_main_v17 (idx_main_v18 (idx_main_v20 (ix2 n i))) = ix2 n (grp colsI i) := funext fun a => Fin.ext (by
    match a with
    | ⟨0, _⟩ => show (n.val * 14336 + i.val) / 14336 = n.val; omega
    | ⟨1, _⟩ => show (n.val * 14336 + i.val) / 128 % 112 = i.val / 128; omega)
  rw [val_main_v20_apply, val_main_v19_apply, val_main_v16_apply, val_main_v15_apply, val_main_v12_apply, val_main_v14_apply,
    val_main_v13_apply, val_main_v18_apply, val_main_v17_apply, e0, e1, e2]
  rfl

/-- The activation after relu², at (b, s, i): the up projection of row (b, s) against weight row i. -/
theorem act_apply (x0 : (⟨S2x2048x4096, .f32⟩ : BufTy).Contents (Elt Ideal)) (x1 : (⟨S14336x4096, .i32⟩ : BufTy).Contents (Elt Ideal))
    (x2 : (⟨S14336x32, .f32⟩ : BufTy).Contents (Elt Ideal)) (x3 : (⟨S14336x32, .i32⟩ : BufTy).Contents (Elt Ideal))
    (b : Fin 2) (s : Fin 2048) (i : Fin 14336) :
    val_main_v11 (F := Ideal) x0 x1 x2 x3 (ix3 b s i) = reluSq (∑ h : Fin 4096, x0 (ix3 b s h) * deq colsH x1 x2 x3 i h) := by
  have hsum : val_main_v9 (F := Ideal) x0 x1 x2 x3 (ix3 b s i) = ∑ h : Fin 4096, x0 (ix3 b s h) * deq colsH x1 x2 x3 i h := by
    rw [val_main_v9_apply]
    refine Finset.sum_congr rfl fun h _ => ?_
    have el : lidx_main_v9 (ix3 b s i) h = ix3 b s h := funext fun a => by
      match a with
      | ⟨0, _⟩ => rfl
      | ⟨1, _⟩ => rfl
      | ⟨2, _⟩ => rfl
    have er : ridx_main_v9 (ix3 b s i) h = ix2 i h := funext fun a => by
      match a with
      | ⟨0, _⟩ => rfl
      | ⟨1, _⟩ => rfl
    rw [el, er, w_up_apply]
  rw [val_main_v11_apply, val_main_v10_apply, hsum, val_main_call0_v0_apply, val_main_call0_cst_apply]
  rfl

/-- THE REFERENCE'S RESULT at (b, s, n) is the MLP of the specification. -/
theorem result_apply (x0 : (⟨S2x2048x4096, .f32⟩ : BufTy).Contents (Elt Ideal)) (x1 : (⟨S14336x4096, .i32⟩ : BufTy).Contents (Elt Ideal))
    (x2 : (⟨S14336x32, .f32⟩ : BufTy).Contents (Elt Ideal)) (x3 : (⟨S14336x32, .i32⟩ : BufTy).Contents (Elt Ideal))
    (x4 : (⟨S4096x14336, .i32⟩ : BufTy).Contents (Elt Ideal)) (x5 : (⟨S4096x112, .f32⟩ : BufTy).Contents (Elt Ideal))
    (x6 : (⟨S4096x112, .i32⟩ : BufTy).Contents (Elt Ideal)) (b : Fin 2) (s : Fin 2048) (n : Fin 4096) :
    val_main_v21 (F := Ideal) x0 x1 x2 x3 x4 x5 x6 (ix3 b s n) = mlp colsH colsI x0 x1 x2 x3 x4 x5 x6 b s n := by
  rw [val_main_v21_apply]
  unfold mlp
  refine Finset.sum_congr rfl fun i _ => ?_
  have el : lidx_main_v21 (ix3 b s n) i = ix3 b s i := funext fun a => by
    match a with
    | ⟨0, _⟩ => rfl
    | ⟨1, _⟩ => rfl
    | ⟨2, _⟩ => rfl
  have er : ridx_main_v21 (ix3 b s n) i = ix2 n i := funext fun a => by
    match a with
    | ⟨0, _⟩ => rfl
    | ⟨1, _⟩ => rfl
  rw [el, er, act_apply, w_down_apply]

/-- The reference's result array is the MLP of the argument arrays. -/
theorem result_eq (x0 : (⟨S2x2048x4096, .f32⟩ : BufTy).Contents (Elt Ideal)) (x1 : (⟨S14336x4096, .i32⟩ : BufTy).Contents (Elt Ideal))
    (x2 : (⟨S14336x32, .f32⟩ : BufTy).Contents (Elt Ideal)) (x3 : (⟨S14336x32, .i32⟩ : BufTy).Contents (Elt Ideal))
    (x4 : (⟨S4096x14336, .i32⟩ : BufTy).Contents (Elt Ideal)) (x5 : (⟨S4096x112, .f32⟩ : BufTy).Contents (Elt Ideal))
    (x6 : (⟨S4096x112, .i32⟩ : BufTy).Contents (Elt Ideal)) :
    val_main_v21 (F := Ideal) x0 x1 x2 x3 x4 x5 x6 = fun j => mlp colsH colsI x0 x1 x2 x3 x4 x5 x6 (j 0) (j 1) (j 2) := by
  funext j
  obtain ⟨b, s, n, rfl⟩ : ∃ (b : Fin 2) (s : Fin 2048) (n : Fin 4096), j = ix3 b s n := ⟨j 0, j 1, j 2, eq_ix3 j⟩
  exact result_apply x0 x1 x2 x3 x4 x5 x6 b s n

end Cert.ReferenceIdeal.RefValue

end
-- ==== Proof.lean ====
/-
  A 4-bit-quantized MLP (up projection, relu², down projection) computed by two tiled TensorCore kernels, against
  its plain array reference: equal results on the extended reals.

  Both programs dequantize a weight entry (o, k) as (q (o, k) - z (o, k / 128)) read as a real, times
  s (o, k / 128), and both compute, at (b, s, n),
      the sum over i of  relu² ( the sum over h of x (b, s, h) * w_up (i, h) )  *  w_down (n, i).
  The kernel program reshapes the activations to a tall matrix, runs the up projection on a 16 x 64 grid of
  [64, 896] result blocks and the down projection on a 16 x 64 grid of [64, 256] result blocks, and reshapes back.
  Each result entry of a projection reads one row of the activations and one row of the weight, so a block of the
  result computed from the matching row blocks is a block of the whole-array projection, and the blocks tile the
  result (Proof/UpArray, Proof/DownArray over the bodies' entries in Proof/UpBody, Proof/DownBody). The run of the
  four segments with every buffer named is Proof/KernelRun; the result buffer read through the fold is
  Proof/KernelValue; the reference's operations read at an entry are Proof/RefValue. Both sides are the SAME
  nested sum, term by term in the same order, so no law of the extended reals beyond reading each operation at an
  entry is used, and the precondition (finite inputs) is not needed. The rounding steps to bf16 are the identity
  on the extended reals and nothing was rewritten by the idealization, so `preserves` is trivial.
-/
import proofs.«150182_j83416854823033_2_alg».proof.Defs
import proofs.«150182_j83416854823033_2_alg».proof.Proof.Gen.Kernel
import proofs.«150182_j83416854823033_2_alg».proof.Proof.Gen.Kernel.Skeleton
import proofs.«150182_j83416854823033_2_alg».proof.Proof.Gen.Kernel.Launch
import proofs.«150182_j83416854823033_2_alg».proof.Proof.Gen.Kernel.Points
import proofs.«150182_j83416854823033_2_alg».proof.Proof.Gen.Kernel.Frame
import proofs.«150182_j83416854823033_2_alg».proof.Proof.Gen.KernelIdeal
import proofs.«150182_j83416854823033_2_alg».proof.Proof.Gen.KernelIdeal.Skeleton
import proofs.«150182_j83416854823033_2_alg».proof.Proof.Gen.KernelIdeal.Launch
import proofs.«150182_j83416854823033_2_alg».proof.Proof.Gen.KernelIdeal.Points
import proofs.«150182_j83416854823033_2_alg».proof.Proof.Gen.KernelIdeal.Frame
import proofs.«150182_j83416854823033_2_alg».proof.Proof.Gen.ReferenceIdeal
import proofs.«150182_j83416854823033_2_alg».proof.Proof.Gen.ReferenceIdeal.Run
import proofs.«150182_j83416854823033_2_alg».proof.Proof.Gen.ReferenceIdeal.Read
import proofs.«150182_j83416854823033_2_alg».proof.Proof.Gen.Pre_finite_inputs
import proofs.«150182_j83416854823033_2_alg».proof.Proof.KernelRun
import proofs.«150182_j83416854823033_2_alg».proof.Proof.KernelValue
import proofs.«150182_j83416854823033_2_alg».proof.Proof.RefValue
import Idealize.ShloMosaic.Adequacy
import Idealize.ShloMosaic.Init

noncomputable section

namespace Cert.Proof

open Idealize.ShloMosaic Idealize.ShloMosaic.TcCoe Idealize.SL.Sem Cert.QuantMlp

/-- The kernel program's run at the exact instance: the result buffer ends at the MLP of the launch arrays, the
    arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3)
          = (fun j => mlp Cert.KernelIdeal.UpBody.cols Cert.KernelIdeal.DownBody.cols
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6)) (j 0) (j 1) (j 2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (Cert.KernelIdeal.Mlp.result_eq m ρ c), (h c).2⟩)
    (Cert.KernelIdeal.Whole.run_result (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the MLP of those arguments in their result
    buffers: the kernel program by its run read through the two regions, the reference by its operations read at an
    entry. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
